-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : IVec S8192x4 32) (main_arg1 : FVec F S8192x3 .f32) : IVec S_ 1 :=
  let main_v0 : FVec F S8192x3 .f32 := Host.absf main_arg1
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x4 : Shape := ⟨2, ![8192, 4]⟩
abbrev S8192x3 : Shape := ⟨2, ![8192, 3]⟩
abbrev S8192x72x72x3 : Shape := ⟨4, ![8192, 72, 72, 3]⟩
abbrev S8x4 : Shape := ⟨2, ![8, 4]⟩
abbrev S8x3 : Shape := ⟨2, ![8, 3]⟩
abbrev S8x72x72x3 : Shape := ⟨4, ![8, 72, 72, 3]⟩
abbrev S8x1 : Shape := ⟨2, ![8, 1]⟩
abbrev S8x1x1x1 : Shape := ⟨4, ![8, 1, 1, 1]⟩
abbrev S8x1x1x3 : Shape := ⟨4, ![8, 1, 1, 3]⟩

abbrev nBuf : Space → Nat
  | .hbm => 3
  | .vmem => 6
  | .smem => 0
  | _ => 0

abbrev bufTy : (tb : Table) → Fin (tcTables nBuf tb) → BufTy
  | .hbm, ⟨0, _⟩ => ⟨S8192x4, .i32⟩
  | .hbm, ⟨1, _⟩ => ⟨S8192x3, .f32⟩
  | .hbm, ⟨2, _⟩ => ⟨S8192x72x72x3, .f32⟩
  | .local _ .vmem, ⟨0, _⟩ => ⟨S8x4, .i32⟩
  | .local _ .vmem, ⟨1, _⟩ => ⟨S8x4, .i32⟩
  | .local _ .vmem, ⟨2, _⟩ => ⟨S8x3, .f32⟩
  | .local _ .vmem, ⟨3, _⟩ => ⟨S8x3, .f32⟩
  | .local _ .vmem, ⟨4, _⟩ => ⟨S8x72x72x3, .f32⟩
  | .local _ .vmem, ⟨5, _⟩ => ⟨S8x72x72x3, .f32⟩
  | _, _ => ⟨S8192x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x72x72x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x4_S8x4_0_0 : ∀ a, (![0, 0] : Fin 2 → Nat) a + S8x4.size a ≤ S8x4.size a
  h_S8x4 : 0 < S8x4.numel
  iota_S8x72x72x3_d1_w32 : S8x72x72x3.Iotas .tc 32 [1]
  iota_S8x72x72x3_d2_w32 : S8x72x72x3.Iotas .tc 32 [2]
  slices_S8x4_o0_0_S8x1 : S8x4.Slices ![0, 0] S8x1
  shapeCasts_S8x1_S8x1x1x1 : S8x1.ShapeCasts S8x1x1x1
  slices_S8x4_o0_1_S8x1 : S8x4.Slices ![0, 1] S8x1
  slices_S8x4_o0_2_S8x1 : S8x4.Slices ![0, 2] S8x1
  slices_S8x4_o0_3_S8x1 : S8x4.Slices ![0, 3] S8x1
  broadcasts_S8x1x1x1_S8x72x72x3 : S8x1x1x1.Broadcasts S8x72x72x3
  inb_S8x3_S8x3_0_0 : ∀ a, (![0, 0] : Fin 2 → Nat) a + S8x3.size a ≤ S8x3.size a
  h_S8x3 : 0 < S8x3.numel
  shapeCasts_S8x3_S8x1x1x3 : S8x3.ShapeCasts S8x1x1x3
  shapeCasts_S8x1x1x3_S8x1x1x3 : S8x1x1x3.ShapeCasts S8x1x1x3
  broadcasts_S8x1x1x3_S8x72x72x3 : S8x1x1x3.Broadcasts S8x72x72x3
  inb_S8x72x72x3_S8x72x72x3_0_0_0_0 : ∀ a, (![0, 0, 0, 0] : Fin 4 → Nat) a + S8x72x72x3.size a ≤ S8x72x72x3.size a
  h_S8x72x72x3 : 0 < S8x72x72x3.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4.size a ≤ S8192x4.size a
  hwx0_0 : ∀ i : grid0.Coords, EltTy.bits .i32 = 32 ∨ (Rect.block (s := S8192x4) S8x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8192x3.size a
  hwx0_1 : ∀ i : grid0.Coords, EltTy.bits .f32 = 32 ∨ (Rect.block (s := S8192x3) S8x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x72x72x3.size a ≤ S8192x72x72x3.size a
  hwx0_2 : ∀ i : grid0.Coords, EltTy.bits .f32 = 32 ∨ (Rect.block (s := S8192x72x72x3) S8x72x72x3.size (cc0_transform_2 i) (hinb0_2 i)).WholeWords (EltTy.packing .f32)

variable [Facts₀]

abbrev win0_0 : Pipeline.Window sig grid0 :=
  Pipeline.Window.ofSpec (Memref.whole main_arg0) S8x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x72x72x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4 : Shape := ⟨2, ![8192, 4]⟩
abbrev S8192x3 : Shape := ⟨2, ![8192, 3]⟩
abbrev S8192x2x2 : Shape := ⟨3, ![8192, 2, 2]⟩
abbrev S8192x1x2 : Shape := ⟨3, ![8192, 1, 2]⟩
abbrev S8192x2 : Shape := ⟨2, ![8192, 2]⟩
abbrev S72 : Shape := ⟨1, ![72]⟩
abbrev S1x72 : Shape := ⟨2, ![1, 72]⟩
abbrev S8192x1 : Shape := ⟨2, ![8192, 1]⟩
abbrev S8192x72 : Shape := ⟨2, ![8192, 72]⟩
abbrev S8192x72x1 : Shape := ⟨3, ![8192, 72, 1]⟩
abbrev S8192x1x72 : Shape := ⟨3, ![8192, 1, 72]⟩
abbrev S8192x72x72 : Shape := ⟨3, ![8192, 72, 72]⟩
abbrev S8192x72x72x1 : Shape := ⟨4, ![8192, 72, 72, 1]⟩
abbrev S8192x1x1x3 : Shape := ⟨4, ![8192, 1, 1, 3]⟩
abbrev S_ : Shape := ⟨0, ![]⟩
abbrev S8192x72x72x3 : Shape := ⟨4, ![8192, 72, 72, 3]⟩

abbrev nBuf : Space → Nat
  | .hbm => 42
  | .vmem => 0
  | .smem => 0
  | _ => 0

abbrev bufTy : (tb : Table) → Fin (tcTables nBuf tb) → BufTy
  | .hbm, ⟨0, _⟩ => ⟨S8192x4, .i32⟩
  | .hbm, ⟨1, _⟩ => ⟨S8192x3, .f32⟩
  | .hbm, ⟨2, _⟩ => ⟨S8192x2x2, .i32⟩
  | .hbm, ⟨3, _⟩ => ⟨S8192x1x2, .i32⟩
  | .hbm, ⟨4, _⟩ => ⟨S8192x2, .i32⟩
  | .hbm, ⟨5, _⟩ => ⟨S8192x1x2, .i32⟩
  | .hbm, ⟨6, _⟩ => ⟨S8192x2, .i32⟩
  | .hbm, ⟨7, _⟩ => ⟨S72, .i32⟩
  | .hbm, ⟨8, _⟩ => ⟨S1x72, .i32⟩
  | .hbm, ⟨9, _⟩ => ⟨S8192x1, .i32⟩
  | .hbm, ⟨10, _⟩ => ⟨S8192x72, .i32⟩
  | .hbm, ⟨11, _⟩ => ⟨S8192x72, .i32⟩
  | .hbm, ⟨12, _⟩ => ⟨S8192x72, .i1⟩
  | .hbm, ⟨13, _⟩ => ⟨S1x72, .i32⟩
  | .hbm, ⟨14, _⟩ => ⟨S8192x1, .i32⟩
  | .hbm, ⟨15, _⟩ => ⟨S8192x72, .i32⟩
  | .hbm, ⟨16, _⟩ => ⟨S8192x72, .i32⟩
  | .hbm, ⟨17, _⟩ => ⟨S8192x72, .i1⟩
  | .hbm, ⟨18, _⟩ => ⟨S8192x72, .i1⟩
  | .hbm, ⟨19, _⟩ => ⟨S1x72, .i32⟩
  | .hbm, ⟨20, _⟩ => ⟨S8192x1, .i32⟩
  | .hbm, ⟨21, _⟩ => ⟨S8192x72, .i32⟩
  | .hbm, ⟨22, _⟩ => ⟨S8192x72, .i32⟩
  | .hbm, ⟨23, _⟩ => ⟨S8192x72, .i1⟩
  | .hbm, ⟨24, _⟩ => ⟨S1x72, .i32⟩
  | .hbm, ⟨25, _⟩ => ⟨S8192x1, .i32⟩
  | .hbm, ⟨26, _⟩ => ⟨S8192x72, .i32⟩
  | .hbm, ⟨27, _⟩ => ⟨S8192x72, .i32⟩
  | .hbm, ⟨28, _⟩ => ⟨S8192x72, .i1⟩
  | .hbm, ⟨29, _⟩ => ⟨S8192x72, .i1⟩
  | .hbm, ⟨30, _⟩ => ⟨S8192x72x1, .i1⟩
  | .hbm, ⟨31, _⟩ => ⟨S8192x1x72, .i1⟩
  | .hbm, ⟨32, _⟩ => ⟨S8192x72x72, .i1⟩
  | .hbm, ⟨33, _⟩ => ⟨S8192x72x72, .i1⟩
  | .hbm, ⟨34, _⟩ => ⟨S8192x72x72, .i1⟩
  | .hbm, ⟨35, _⟩ => ⟨S8192x72x72x1, .i1⟩
  | .hbm, ⟨36, _⟩ => ⟨S8192x1x1x3, .f32⟩
  | .hbm, ⟨37, _⟩ => ⟨S_, .f32⟩
  | .hbm, ⟨38, _⟩ => ⟨S8192x72x72x3, .i1⟩
  | .hbm, ⟨39, _⟩ => ⟨S8192x72x72x3, .f32⟩
  | .hbm, ⟨40, _⟩ => ⟨S8192x72x72x3, .f32⟩
  | .hbm, ⟨41, _⟩ => ⟨S8192x72x72x3, .f32⟩
  | _, _ => ⟨S8192x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v35 : Ref sig .tc := ⟨.hbm, 41, rfl⟩

abbrev nD : Nat := 1
abbrev τ : Topo := Topo.v7x

variable {F : FTy → Type} [FloatOps F]

class Facts₀ : Prop where
  shapeCasts_S8192x4_S8192x2x2 : S8192x4.ShapeCasts S8192x2x2
  slices_S8192x2x2_S8192x1x2_0_0_0 : S8192x2x2.Slices ![0, 0, 0] S8192x1x2
  shapeCasts_S8192x1x2_S8192x2 : S8192x1x2.ShapeCasts S8192x2
  slices_S8192x2x2_S8192x1x2_0_1_0 : S8192x2x2.Slices ![0, 1, 0] S8192x1x2
  bcast_S72_S1x72_1 : S72.BroadcastsInDim S1x72 (![1] : Fin 1 → Fin S1x72.rank)
  slices_S8192x2_S8192x1_0_0 : S8192x2.Slices ![0, 0] S8192x1
  bcast_S1x72_S8192x72_0_1 : S1x72.BroadcastsInDim S8192x72 (![0, 1] : Fin 2 → Fin S8192x72.rank)
  bcast_S8192x1_S8192x72_0_1 : S8192x1.BroadcastsInDim S8192x72 (![0, 1] : Fin 2 → Fin S8192x72.rank)
  slices_S8192x2_S8192x1_0_1 : S8192x2.Slices ![0, 1] S8192x1
  bcast_S8192x72_S8192x72x1_0_1 : S8192x72.BroadcastsInDim S8192x72x1 (![0, 1] : Fin 2 → Fin S8192x72x1.rank)
  bcast_S8192x72_S8192x1x72_0_2 : S8192x72.BroadcastsInDim S8192x1x72 (![0, 2] : Fin 2 → Fin S8192x1x72.rank)
  bcast_S8192x72x1_S8192x72x72_0_1_2 : S8192x72x1.BroadcastsInDim S8192x72x72 (![0, 1, 2] : Fin 3 → Fin S8192x72x72.rank)
  bcast_S8192x1x72_S8192x72x72_0_1_2 : S8192x1x72.BroadcastsInDim S8192x72x72 (![0, 1, 2] : Fin 3 → Fin S8192x72x72.rank)
  bcast_S8192x72x72_S8192x72x72x1_0_1_2 : S8192x72x72.BroadcastsInDim S8192x72x72x1 (![0, 1, 2] : Fin 3 → Fin S8192x72x72x1.rank)
  bcast_S8192x3_S8192x1x1x3_0_3 : S8192x3.BroadcastsInDim S8192x1x1x3 (![0, 3] : Fin 2 → Fin S8192x1x1x3.rank)
  bcast_S8192x72x72x1_S8192x72x72x3_0_1_2_3 : S8192x72x72x1.BroadcastsInDim S8192x72x72x3 (![0, 1, 2, 3] : Fin 4 → Fin S8192x72x72x3.rank)
  bcast_S8192x1x1x3_S8192x72x72x3_0_1_2_3 : S8192x1x1x3.BroadcastsInDim S8192x72x72x3 (![0, 1, 2, 3] : Fin 4 → Fin S8192x72x72x3.rank)
  bcast_S_S8192x72x72x3 : S_.BroadcastsInDim S8192x72x72x3 (![] : Fin 0 → Fin S8192x72x72x3.rank)

variable [Facts₀]

class Facts : Prop extends Facts₀ where

variable [Facts]
-- ==== Proof.PasteSpec.lean ====
/-
  Painting a rectangle on a canvas, as one function of the argument arrays.

  There are 8192 items. Item `b` carries four 32-bit words `pos(b,0) … pos(b,3)` — the top row, the left column, the
  bottom row and the right column of an axis-aligned rectangle, the bottom and the right excluded — and three colour
  values `col(b,0) … col(b,2)`. The canvas of item `b` has 72 rows, 72 columns and three channels. The entry at row
  `r`, column `c`, channel `k` is `col(b,k)` when `(r, c)` lies in the rectangle and the background value elsewhere:

      paste bg pos col (b, r, c, k) = if  pos(b,0) ≤ r < pos(b,2)  and  pos(b,1) ≤ c < pos(b,3)  then col(b,k) else bg,

  the comparisons those of signed 32-bit words, with `r` and `c` read as the words of their numbers. Nothing is computed
  on the colour values: an entry is one of them or the background, so the function is stated for any type of values.

  The membership bit is the conjunction of four comparison bits. One program groups them `((A ∧ B) ∧ C) ∧ D`, the
  other `(A ∧ B) ∧ (C ∧ D)`; conjunction of bits is associative (`inRect_pair`).
-/
import Idealize.ShloMosaic.PureOps
import Idealize.ShloMosaic.Lib.ValueIdx

namespace Cert.Paste

open Idealize.ShloMosaic Idealize.ShloMosaic.ValueIdx

/-- The bit "row `r`, column `c` lies in the rectangle with top row `p0`, left column `p1`, bottom row `p2` and
    right column `p3` (both excluded)": four signed comparisons of 32-bit words, joined from the left. -/
def inRect (p0 p1 p2 p3 : BitVec 32) (r c : Nat) : BitVec 1 :=
  IntOp.andi
    (IntOp.andi
      (IntOp.andi (IntOp.cmpi .sge (BitVec.ofNat 32 r) p0) (IntOp.cmpi .slt (BitVec.ofNat 32 r) p2))
      (IntOp.cmpi .sge (BitVec.ofNat 32 c) p1))
    (IntOp.cmpi .slt (BitVec.ofNat 32 c) p3)

/-- The same bit with the row test and the column test each formed first and then joined. -/
theorem inRect_pair (p0 p1 p2 p3 : BitVec 32) (r c : Nat) :
    IntOp.andi
      (IntOp.andi (IntOp.cmpi .sge (BitVec.ofNat 32 r) p0) (IntOp.cmpi .slt (BitVec.ofNat 32 r) p2))
      (IntOp.andi (IntOp.cmpi .sge (BitVec.ofNat 32 c) p1) (IntOp.cmpi .slt (BitVec.ofNat 32 c) p3))
    = inRect p0 p1 p2 p3 r c := by
  unfold inRect IntOp.andi
  exact (BitVec.and_assoc _ _ _).symm

/-- The painted canvases: entry `(b, r, c, k)` is the item's colour `col (b, k)` inside the item's rectangle and the
    background `bg` outside it. -/
def paste {α : Type} (bg : α) (pos : (⟨2, ![8192, 4]⟩ : Shape).Idx → BitVec 32) (col : (⟨2, ![8192, 3]⟩ : Shape).Idx → α) :
    (⟨4, ![8192, 72, 72, 3]⟩ : Shape).Idx → α :=
  fun i => Scalar.select
    (inRect (pos (ix2 (i 0) (0 : Fin 4))) (pos (ix2 (i 0) (1 : Fin 4))) (pos (ix2 (i 0) (2 : Fin 4))) (pos (ix2 (i 0) (3 : Fin 4)))
      (i 1).val (i 2).val)
    (col (ix2 (i 0) (i 3))) bg

theorem paste_apply {α : Type} (bg : α) (pos : (⟨2, ![8192, 4]⟩ : Shape).Idx → BitVec 32) (col : (⟨2, ![8192, 3]⟩ : Shape).Idx → α)
    (b : Fin 8192) (r c : Fin 72) (k : Fin 3) :
    paste bg pos col (ix4 b r c k) = Scalar.select
      (inRect (pos (ix2 b (0 : Fin 4))) (pos (ix2 b (1 : Fin 4))) (pos (ix2 b (2 : Fin 4))) (pos (ix2 b (3 : Fin 4))) r.val c.val)
      (col (ix2 b k)) bg := rfl

end Cert.Paste
-- ==== Proof.PasteBody.lean ====
/-
  What one grid point's body stores, read at an index.

  At a grid point the body holds the block of eight items' words `v : [8,4]` and the block of their colours `w : [8,3]`,
  and stores one value of shape [8,72,72,3]. Each column `q` of `v` is cut out as [8,1], recast to [8,1,1,1] and spread
  over [8,72,72,3], so that at `(b, r, c, k)` it reads `v(b,q)` (`word_at`); the colours are recast to [8,1,1,3] and
  spread the same way, reading `w(b,k)` (`colour_at`); the row and column numbers are the coordinates `r` and `c` as
  32-bit words. So the stored value at `(b, r, c, k)` is the colour `w(b,k)` where `(r, c)` lies in item `b`'s rectangle
  and the background word elsewhere (`stored_apply`): the canvas of the specification, for the eight items of the block.
-/
import proofs.«100306_j77841987273276_2_alg».proof.Proof.Gen.KernelIdeal.Skeleton
import proofs.«100306_j77841987273276_2_alg».proof.Proof.PasteSpec
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.Paste

variable {F : FTy → Type} [FloatOps F]

/-- Column `q` of a block [8,4], cut out, recast to [8,1,1,1] and spread over [8,72,72,3], reads the block's entry
    `(b, q)` at `(b, r, c, k)`. -/
theorem word_at {α : Type} (v : S8x4.Idx → α) (q : Nat) (hq : q < 4) (hs : S8x4.Slices ![0, q] S8x1)
    (hc : S8x1.ShapeCasts S8x1x1x1) (hb : S8x1x1x1.Broadcasts S8x72x72x3) (b : Fin 8) (r c : Fin 72) (k : Fin 3) :
    broadcastTo S8x72x72x3 (shapeCast S8x1x1x1 (extractStridedSlice S8x1 ![0, q] v hs) hc) hb (ix4 b r c k)
      = v (ix2 b (⟨q, hq⟩ : Fin 4)) := by
  refine (broadcastTo_apply _ hb (ix4 b r c k) (ix4 b (0 : Fin 1) (0 : Fin 1) (0 : Fin 1)) (fun a => ?_)).trans ?_
  · match a with
    | ⟨0, _⟩ => show b.val = if (8 : Nat) = 1 then 0 else b.val; rw [if_neg (by decide)]
    | ⟨1, _⟩ => show 0 = if (1 : Nat) = 1 then 0 else r.val; rw [if_pos rfl]
    | ⟨2, _⟩ => show 0 = if (1 : Nat) = 1 then 0 else c.val; rw [if_pos rfl]
    | ⟨3, _⟩ => show 0 = if (1 : Nat) = 1 then 0 else k.val; rw [if_pos rfl]
  refine (shapeCast_apply _ hc (ix4 b (0 : Fin 1) (0 : Fin 1) (0 : Fin 1)) (ix2 b (0 : Fin 1)) ?_).trans ?_
  · rw [Shape.rowMajor_val_two, Shape.rowMajor_val_four]
    show b.val * 1 + 0 = ((b.val * 1 + 0) * 1 + 0) * 1 + 0
    omega
  exact extractStridedSlice_apply ![0, q] v hs (ix2 b (0 : Fin 1)) (ix2 b (⟨q, hq⟩ : Fin 4)) (fun a => match a with
    | ⟨0, _⟩ => by show b.val = 0 + b.val; omega
    | ⟨1, _⟩ => by show q = q + 0; omega)

/-- A block of colours [8,3], recast to [8,1,1,3] and spread over [8,72,72,3], reads the block's entry `(b, k)` at
    `(b, r, c, k)`. -/
theorem colour_at {α : Type} (w : S8x3.Idx → α) (h1 : S8x3.ShapeCasts S8x1x1x3) (h2 : S8x1x1x3.ShapeCasts S8x1x1x3)
    (hb : S8x1x1x3.Broadcasts S8x72x72x3) (b : Fin 8) (r c : Fin 72) (k : Fin 3) :
    broadcastTo S8x72x72x3 (shapeCast S8x1x1x3 (shapeCast S8x1x1x3 w h1) h2) hb (ix4 b r c k) = w (ix2 b k) := by
  rw [shapeCast_self]
  refine (broadcastTo_apply _ hb (ix4 b r c k) (ix4 b (0 : Fin 1) (0 : Fin 1) k) (fun a => ?_)).trans ?_
  · match a with
    | ⟨0, _⟩ => show b.val = if (8 : Nat) = 1 then 0 else b.val; rw [if_neg (by decide)]
    | ⟨1, _⟩ => show 0 = if (1 : Nat) = 1 then 0 else r.val; rw [if_pos rfl]
    | ⟨2, _⟩ => show 0 = if (1 : Nat) = 1 then 0 else c.val; rw [if_pos rfl]
    | ⟨3, _⟩ => show k.val = if (3 : Nat) = 1 then 0 else k.val; rw [if_neg (by decide)]
  refine shapeCast_apply _ h1 (ix4 b (0 : Fin 1) (0 : Fin 1) k) (ix2 b k) ?_
  rw [Shape.rowMajor_val_two, Shape.rowMajor_val_four]
  show b.val * 3 + k.val = ((b.val * 1 + 0) * 1 + 0) * 3 + k.val
  omega

/-- The stored value at `(b, r, c, k)`: item `b`'s colour `k` inside item `b`'s rectangle, the background word
    outside it. -/
theorem stored_apply (v : Vec F S8x4 .i32) (w : Vec F S8x3 .f32) (b : Fin 8) (r c : Fin 72) (k : Fin 3) :
    k0_pay1 v w (ix4 b r c k) = Scalar.select
      (inRect (v (ix2 b (0 : Fin 4))) (v (ix2 b (1 : Fin 4))) (v (ix2 b (2 : Fin 4))) (v (ix2 b (3 : Fin 4))) r.val c.val)
      (w (ix2 b k)) (FloatOps.ofBits .f32 0x437F0000#32) := by
  unfold k0_pay1 inRect
  show Scalar.select (IntOp.andi (IntOp.andi (IntOp.andi (IntOp.cmpi .sge _ _) (IntOp.cmpi .slt _ _)) (IntOp.cmpi .sge _ _)) (IntOp.cmpi .slt _ _)) _ _ = _
  rw [iota_single_apply, iota_single_apply, word_at v 0 (by decide), word_at v 1 (by decide), word_at v 2 (by decide),
    word_at v 3 (by decide), colour_at w]
  rfl

end Cert.KernelIdeal.Body

end
-- ==== Proof.PasteBlocks.lean ====
/-
  From what each grid point writes back to the whole result array.

  The grid has 1024 points. Point `t` holds items `8t … 8t + 7`: its block of words is rows `8t … 8t + 7` of the words'
  array (`words_blk`), its block of colours the same rows of the colours' array (`colours_blk`), and what it writes
  back is rows `8t … 8t + 7` of the result. The body's stored value at `(b, r, c, k)` is the specification's canvas of
  the block's item `b`, which is item `8t + b` of the arrays (`block_entry`); so point `t` writes back block `t` of the
  specification's canvases (`flushed_eq`). Item `B` lies in the block of point `B / 8`, so the blocks cover the result
  (`cover`), and the result array after the run is the specification's canvases of the argument arrays (`final`, `run`).
-/
import proofs.«100306_j77841987273276_2_alg».proof.Proof.Gen.KernelIdeal.Value
import proofs.«100306_j77841987273276_2_alg».proof.Proof.PasteBody
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Paste
open Idealize.ShloMosaic.Pipeline (Dat)

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The canvases of the specification over the argument arrays as the region finds them, the background the word
    of 255.0. -/
abbrev canvas (c : Dev nD) : S8192x72x72x3.Idx → Elt F .f32 :=
  paste (FloatOps.ofBits .f32 0x437F0000#32) (V m c main_arg0) (V m c main_arg1)

/-- The printed index maps, decided over the 1024 grid points: point `t` takes block `t` along the items and block 0
    along every other axis, of all three arrays. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

/-- Entry `(b, q)` of the block of words at point `t` is the words' array at item `8t + b`. -/
theorem words_blk (c : Dev nD) (t : Fin cfg0.N) (b : Fin 8) (q : Fin 4) (B : Fin 8192) (hB : B.val = 8 * t.val + b.val) :
    (iblk m c 0 t : Vec F S8x4 .i32) (ix2 b q) = V m c main_arg0 (ix2 B q) := by
  obtain ⟨e0, e1, -⟩ := idx_facts t
  unfold iblk
  rw [View.read_apply]
  show V m c main_arg0 (((cfg0.win 0).blk t).view.emb (ix2 b q)) = V m c main_arg0 (ix2 B q)
  refine congrArg (V m c main_arg0) (funext fun a => Fin.ext ?_)
  match a with
  | ⟨0, _⟩ => show win0_0.index t 0 * 8 + 1 * b.val = B.val; rw [e0, hB]; omega
  | ⟨1, _⟩ => show win0_0.index t 1 * 4 + 1 * q.val = q.val; rw [e1]; omega

/-- Entry `(b, k)` of the block of colours at point `t` is the colours' array at item `8t + b`. -/
theorem colours_blk (c : Dev nD) (t : Fin cfg0.N) (b : Fin 8) (k : Fin 3) (B : Fin 8192) (hB : B.val = 8 * t.val + b.val) :
    (iblk m c 1 t : Vec F S8x3 .f32) (ix2 b k) = V m c main_arg1 (ix2 B k) := by
  obtain ⟨-, -, e0, e1, -⟩ := idx_facts t
  unfold iblk
  rw [View.read_apply]
  show V m c main_arg1 (((cfg0.win 1).blk t).view.emb (ix2 b k)) = V m c main_arg1 (ix2 B k)
  refine congrArg (V m c main_arg1) (funext fun a => Fin.ext ?_)
  match a with
  | ⟨0, _⟩ => show win0_1.index t 0 * 8 + 1 * b.val = B.val; rw [e0, hB]; omega
  | ⟨1, _⟩ => show win0_1.index t 1 * 3 + 1 * k.val = k.val; rw [e1]; omega

/-- What point `t` stores at `(b, r, c, k)` is the specification's canvas of item `8t + b` at `(r, c, k)`. -/
theorem block_entry (c : Dev nD) (t : Fin cfg0.N) (b : Fin 8) (r cc : Fin 72) (k : Fin 3) (B : Fin 8192)
    (hB : B.val = 8 * t.val + b.val) :
    k0_pay1 (iblk m c 0 t) (iblk m c 1 t) (ix4 b r cc k) = canvas m c (ix4 B r cc k) := by
  refine (Body.stored_apply (iblk m c 0 t) (iblk m c 1 t) b r cc k).trans ?_
  rw [words_blk m c t b 0 B hB, words_blk m c t b 1 B hB, words_blk m c t b 2 B hB, words_blk m c t b 3 B hB,
    colours_blk m c t b k B hB]
  rfl

/-- Point `t` writes back block `t` of the specification's canvases. -/
theorem flushed_eq (c : Dev nD) (t : Fin cfg0.N) :
    (dats m 0 c).flushed 2 t = ((cfg0.win 2).blk t).view.read (Elt F) (canvas m c) := by
  rw [Value.flushed2]
  unfold out0_2
  rw [View.canon_unit_zero hz4]
  simp only [View.ld_unit_zero (S := S8x4) hz2, View.ld_unit_zero (S := S8x3) hz2]
  funext j
  obtain ⟨-, -, -, -, e0, e1, e2, e3⟩ := idx_facts t
  have hN : t.val < 1024 := lt_of_lt_of_eq t.isLt N_0
  have h0 : (j 0).val < 8 := (j 0).isLt
  have h1 : (j 1).val < 72 := (j 1).isLt
  have h2 : (j 2).val < 72 := (j 2).isLt
  have h3 : (j 3).val < 3 := (j 3).isLt
  rw [View.read_apply]
  show k0_pay1 (iblk m c 0 t) (iblk m c 1 t) ((win0 2).xinj (grid0.coords t) j) = canvas m c (((cfg0.win 2).blk t).view.emb j)
  have ej : ((win0 2).xinj (grid0.coords t) j : S8x72x72x3.Idx)
      = ix4 (⟨(j 0).val, h0⟩ : Fin 8) (⟨(j 1).val, h1⟩ : Fin 72) (⟨(j 2).val, h2⟩ : Fin 72) (⟨(j 3).val, h3⟩ : Fin 3) :=
    funext fun a => match a with
      | ⟨0, _⟩ => rfl
      | ⟨1, _⟩ => rfl
      | ⟨2, _⟩ => rfl
      | ⟨3, _⟩ => rfl
  refine (congrArg (k0_pay1 (iblk m c 0 t) (iblk m c 1 t)) ej).trans ?_
  refine (block_entry m c t _ _ _ _ (⟨8 * t.val + (j 0).val, by omega⟩ : Fin 8192) rfl).trans ?_
  refine congrArg (canvas m c) (funext fun a => Fin.ext ?_)
  match a with
  | ⟨0, _⟩ => show 8 * t.val + (j 0).val = win0_2.index t 0 * 8 + 1 * (j 0).val; rw [e0]; omega
  | ⟨1, _⟩ => show (j 1).val = win0_2.index t 1 * 72 + 1 * (j 1).val; rw [e1]; omega
  | ⟨2, _⟩ => show (j 2).val = win0_2.index t 2 * 72 + 1 * (j 2).val; rw [e2]; omega
  | ⟨3, _⟩ => show (j 3).val = win0_2.index t 3 * 3 + 1 * (j 3).val; rw [e3]; omega

/-- An index of the result is in point `t`'s block iff each coordinate is in the block's range on its axis. -/
theorem mem_blk (t : Fin cfg0.N) (i : S8192x72x72x3.Idx) :
    i ∈ ((cfg0.win 2).blk t).view.set ↔ ∀ a : Fin 4, win0_2.index t a * S8x72x72x3.size a ≤ (i a).val
      ∧ (i a).val < win0_2.index t a * S8x72x72x3.size a + S8x72x72x3.size a := by
  show i ∈ ((View.whole main_v0).slice (win0_2.rect t)).set ↔ _
  rw [View.set_slice_whole, Rect.mem_set_unit]
  exact Iff.rfl

/-- Every index of the result lies in some point's block: item `B` in the block of point `B / 8`. -/
theorem cover (i : S8192x72x72x3.Idx) :
    ∃ t : Fin cfg0.N, (cfg0.win 2).flush t = true ∧ i ∈ ((cfg0.win 2).blk t).view.set := by
  have hi0 : (i 0).val < 8192 := (i 0).isLt
  have hi1 : (i 1).val < 72 := (i 1).isLt
  have hi2 : (i 2).val < 72 := (i 2).isLt
  have hi3 : (i 3).val < 3 := (i 3).isLt
  obtain ⟨t, ht⟩ : ∃ t : Fin cfg0.N, t.val = (i 0).val / 8 :=
    ⟨⟨(i 0).val / 8, by rw [show cfg0.N = 1024 from N_0]; omega⟩, rfl⟩
  obtain ⟨-, -, -, -, e0, e1, e2, e3⟩ := idx_facts t
  refine ⟨t, flush0_2 t, ?_⟩
  rw [mem_blk]
  intro a
  match a with
  | ⟨0, _⟩ => show win0_2.index t 0 * 8 ≤ (i 0).val ∧ (i 0).val < win0_2.index t 0 * 8 + 8; rw [e0, ht]; omega
  | ⟨1, _⟩ => show win0_2.index t 1 * 72 ≤ (i 1).val ∧ (i 1).val < win0_2.index t 1 * 72 + 72; rw [e1]; omega
  | ⟨2, _⟩ => show win0_2.index t 2 * 72 ≤ (i 2).val ∧ (i 2).val < win0_2.index t 2 * 72 + 72; rw [e2]; omega
  | ⟨3, _⟩ => show win0_2.index t 3 * 3 ≤ (i 3).val ∧ (i 3).val < win0_2.index t 3 * 3 + 3; rw [e3]; omega

/-- The result array after the run is the specification's canvases. -/
theorem final (c : Dev nD) : (dats m 0 c).arrAt 2 cfg0.N = canvas m c :=
  (dats m 0 c).arrAt_eq_of_cover 2 (canvas m c) (fun t _ => flushed_eq m c t) cover

/-- The kernel's run, read: the result array at the specification's canvases of the argument arrays, the arguments
    unchanged. -/
theorem run : θ_run defs (onTc (τ := τ) (main (F := F))) ⟨m, fun _ => 0, ρ⟩ fun r => ∀ c : Dev nD,
      r.2.mem ((c : Thread nD τ).loc main_v0)
        = paste (FloatOps.ofBits .f32 0x437F0000#32) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.PasteRef.lean ====
/-
  The reference program computes the canvases of the specification.

  The reference recasts the words [8192,4] to [8192,2,2], so that item `b`'s word `(u, v)` is its word `2u + v`; takes
  the top-left pair `(·, 0, ·)` and the bottom-right pair `(·, 1, ·)`; compares the row numbers `0 … 71` with the first
  word of each pair and the column numbers with the second; joins the two row bits and the two column bits; spreads the
  row bit along the columns and the column bit along the rows and joins them; spreads the result over the three channels;
  and selects the item's colour or the background. Read at `(b, r, c, k)` through the generated one-operation-at-a-time
  lemmas, every spread reads its operand at the coordinates it keeps, each of the four words is `pos (b, q)`
  (`top_at`, `bottom_at`, `left_at`, `right_at`), and the bit is the row test joined with the column test — the
  specification's bit up to the grouping of the conjunction.
-/
import proofs.«100306_j77841987273276_2_alg».proof.Proof.Gen.ReferenceIdeal.Read
import proofs.«100306_j77841987273276_2_alg».proof.Proof.PasteSpec
import Idealize.ShloMosaic.Lib.ValueIdx

noncomputable section

namespace Cert.ReferenceIdeal.RefValue

open Cert.ReferenceIdeal Cert.ReferenceIdeal.Read Idealize.ShloMosaic Idealize.ShloMosaic.ValueIdx Cert.Paste

variable {F : FTy → Type} [FloatOps F]

/-- The row numbers, spread down the items: at `(b, r)` the word of `r`. The reference forms this array four times,
    once per comparison; the four are one function. -/
theorem rows_at (b : Fin 8192) (r : Fin 72) : val_main_v8 (F := F) (ix2 b r) = BitVec.ofNat 32 r.val := by
  rw [val_main_v8_apply, val_main_v6_apply, val_main_v5_apply]

theorem rows_at13 (b : Fin 8192) (r : Fin 72) : val_main_v13 (F := F) (ix2 b r) = BitVec.ofNat 32 r.val := by
  rw [val_main_v13_apply, val_main_v11_apply, val_main_v5_apply]

theorem rows_at19 (b : Fin 8192) (r : Fin 72) : val_main_v19 (F := F) (ix2 b r) = BitVec.ofNat 32 r.val := by
  rw [val_main_v19_apply, val_main_v17_apply, val_main_v5_apply]

theorem rows_at24 (b : Fin 8192) (r : Fin 72) : val_main_v24 (F := F) (ix2 b r) = BitVec.ofNat 32 r.val := by
  rw [val_main_v24_apply, val_main_v22_apply, val_main_v5_apply]

/-- The first word of the top-left pair, spread along the rows: item `b`'s word 0. -/
theorem top_at (x0 : IVec S8192x4 32) (b : Fin 8192) (r : Fin 72) :
    val_main_v9 (F := F) x0 (ix2 b r) = x0 (ix2 b (0 : Fin 4)) := by
  rw [val_main_v9_apply, val_main_v7_apply, val_main_v2_apply, val_main_v1_apply, val_main_v0_apply]
  refine congrArg x0 (funext fun a => Fin.ext ?_)
  match a with
  | ⟨0, _⟩ => show (((b.val * 2 + 0) / 2 * 2 + 0) * 2 + (b.val * 2 + 0) % 2) / 4 = b.val; omega
  | ⟨1, _⟩ => show (((b.val * 2 + 0) / 2 * 2 + 0) * 2 + (b.val * 2 + 0) % 2) % 4 = 0; omega

/-- The first word of the bottom-right pair: item `b`'s word 2. -/
theorem bottom_at (x0 : IVec S8192x4 32) (b : Fin 8192) (r : Fin 72) :
    val_main_v14 (F := F) x0 (ix2 b r) = x0 (ix2 b (2 : Fin 4)) := by
  rw [val_main_v14_apply, val_main_v12_apply, val_main_v4_apply, val_main_v3_apply, val_main_v0_apply]
  refine congrArg x0 (funext fun a => Fin.ext ?_)
  match a with
  | ⟨0, _⟩ => show (((b.val * 2 + 0) / 2 * 2 + (0 + 1)) * 2 + (b.val * 2 + 0) % 2) / 4 = b.val; omega
  | ⟨1, _⟩ => show (((b.val * 2 + 0) / 2 * 2 + (0 + 1)) * 2 + (b.val * 2 + 0) % 2) % 4 = 2; omega

/-- The second word of the top-left pair: item `b`'s word 1. -/
theorem left_at (x0 : IVec S8192x4 32) (b : Fin 8192) (c : Fin 72) :
    val_main_v20 (F := F) x0 (ix2 b c) = x0 (ix2 b (1 : Fin 4)) := by
  rw [val_main_v20_apply, val_main_v18_apply, val_main_v2_apply, val_main_v1_apply, val_main_v0_apply]
  refine congrArg x0 (funext fun a => Fin.ext ?_)
  match a with
  | ⟨0, _⟩ => show (((b.val * 2 + (0 + 1)) / 2 * 2 + 0) * 2 + (b.val * 2 + (0 + 1)) % 2) / 4 = b.val; omega
  | ⟨1, _⟩ => show (((b.val * 2 + (0 + 1)) / 2 * 2 + 0) * 2 + (b.val * 2 + (0 + 1)) % 2) % 4 = 1; omega

/-- The second word of the bottom-right pair: item `b`'s word 3. -/
theorem right_at (x0 : IVec S8192x4 32) (b : Fin 8192) (c : Fin 72) :
    val_main_v25 (F := F) x0 (ix2 b c) = x0 (ix2 b (3 : Fin 4)) := by
  rw [val_main_v25_apply, val_main_v23_apply, val_main_v4_apply, val_main_v3_apply, val_main_v0_apply]
  refine congrArg x0 (funext fun a => Fin.ext ?_)
  match a with
  | ⟨0, _⟩ => show (((b.val * 2 + (0 + 1)) / 2 * 2 + (0 + 1)) * 2 + (b.val * 2 + (0 + 1)) % 2) / 4 = b.val; omega
  | ⟨1, _⟩ => show (((b.val * 2 + (0 + 1)) / 2 * 2 + (0 + 1)) * 2 + (b.val * 2 + (0 + 1)) % 2) % 4 = 3; omega

/-- The row test at `(b, r)`: top ≤ r < bottom. -/
theorem rowBit_at (x0 : IVec S8192x4 32) (b : Fin 8192) (r : Fin 72) :
    val_main_v16 (F := F) x0 (ix2 b r) = IntOp.andi (IntOp.cmpi .sge (BitVec.ofNat 32 r.val) (x0 (ix2 b (0 : Fin 4))))
      (IntOp.cmpi .slt (BitVec.ofNat 32 r.val) (x0 (ix2 b (2 : Fin 4)))) := by
  rw [val_main_v16_apply, val_main_v10_apply, val_main_v15_apply, rows_at, rows_at13, top_at, bottom_at]

/-- The column test at `(b, c)`: left ≤ c < right. -/
theorem colBit_at (x0 : IVec S8192x4 32) (b : Fin 8192) (c : Fin 72) :
    val_main_v27 (F := F) x0 (ix2 b c) = IntOp.andi (IntOp.cmpi .sge (BitVec.ofNat 32 c.val) (x0 (ix2 b (1 : Fin 4))))
      (IntOp.cmpi .slt (BitVec.ofNat 32 c.val) (x0 (ix2 b (3 : Fin 4)))) := by
  rw [val_main_v27_apply, val_main_v21_apply, val_main_v26_apply, rows_at19, rows_at24, left_at, right_at]

/-- The membership bit spread over the channels: at `(b, r, c, k)` the row test at `(b, r)` joined with the column
    test at `(b, c)`. -/
theorem mask_at (x0 : IVec S8192x4 32) (b : Fin 8192) (r c : Fin 72) (k : Fin 3) :
    val_main_call0_v0 (F := F) x0 (ix4 b r c k) = IntOp.andi (val_main_v16 (F := F) x0 (ix2 b r)) (val_main_v27 (F := F) x0 (ix2 b c)) := by
  rw [val_main_call0_v0_apply, val_main_v33_apply, val_main_v32_apply, val_main_v30_apply, val_main_v28_apply,
    val_main_v31_apply, val_main_v29_apply]
  rfl

/-- The colours spread over the canvas: at `(b, r, c, k)` the colour `(b, k)`. -/
theorem colour_at (x1 : FVec F S8192x3 .f32) (b : Fin 8192) (r c : Fin 72) (k : Fin 3) :
    val_main_call0_v1 (F := F) x1 (ix4 b r c k) = x1 (ix2 b k) := by
  rw [val_main_call0_v1_apply, val_main_v34_apply]
  refine congrArg x1 (funext fun a => Fin.ext ?_)
  match a with
  | ⟨0, _⟩ => rfl
  | ⟨1, _⟩ => rfl

/-- The reference's result is the specification's canvases with the background word 255.0. -/
theorem ref_eq (x0 : IVec S8192x4 32) (x1 : FVec F S8192x3 .f32) :
    val_main_v35 (F := F) x0 x1 = paste (FloatOps.ofBits .f32 0x437F0000#32) x0 x1 := by
  funext i
  obtain ⟨b, r, c, k, rfl⟩ : ∃ (b : Fin 8192) (r c : Fin 72) (k : Fin 3), i = ix4 b r c k := ⟨i 0, i 1, i 2, i 3, eq_ix4 i⟩
  rw [val_main_v35_apply, mask_at, rowBit_at, colBit_at, colour_at, val_main_call0_v2_apply, val_main_cst_apply, inRect_pair]
  rfl

end Cert.ReferenceIdeal.RefValue

end
-- ==== Proof.lean ====
/-
  Painting 8192 rectangles: the tiled kernel and the plain reference compute the same canvases.

  Both programs take 8192 items, each four 32-bit words (top row, left column, bottom row, right column of a
  rectangle, the bottom and the right excluded) and three colour values, and produce for each item a canvas of 72 rows,
  72 columns and three channels: the item's colour inside its rectangle, the value 255.0 outside it
  (`Cert.Paste.paste`, Proof/PasteSpec.lean).

  * The kernel walks a grid of 1024 points, eight items each. At a point its body compares the row and the column
    number of every canvas entry with the item's four words, joins the four bits and selects the colour or 255.0
    (Proof/PasteBody.lean); point `t` writes back rows `8t … 8t + 7` of the result, and the 1024 blocks cover it
    (Proof/PasteBlocks.lean). So its result array is `paste` of its argument arrays.
  * The reference forms the row test and the column test on [8192,72] arrays, spreads each over the canvas, joins them
    and selects (Proof/PasteRef.lean). Its result is `paste` of its argument arrays too: the two programs differ only
    in the order in which the four comparison bits are joined, and conjunction of bits is associative.

  No arithmetic is done on the colour values — every result entry is one of them or the constant — so the equality
  holds for every extended-real input and the finiteness precondition is not used. The kernel's idealization rewrote
  nothing, so `preserves` is `True`. The three frames are the generated frame runs and the reference's generated run.
-/
import proofs.«100306_j77841987273276_2_alg».proof.Defs
import proofs.«100306_j77841987273276_2_alg».proof.Proof.Gen.Kernel
import proofs.«100306_j77841987273276_2_alg».proof.Proof.Gen.Kernel.Frame
import proofs.«100306_j77841987273276_2_alg».proof.Proof.Gen.KernelIdeal
import proofs.«100306_j77841987273276_2_alg».proof.Proof.Gen.KernelIdeal.Frame
import proofs.«100306_j77841987273276_2_alg».proof.Proof.Gen.KernelIdeal.Value
import proofs.«100306_j77841987273276_2_alg».proof.Proof.Gen.ReferenceIdeal
import proofs.«100306_j77841987273276_2_alg».proof.Proof.Gen.ReferenceIdeal.Run
import proofs.«100306_j77841987273276_2_alg».proof.Proof.Gen.ReferenceIdeal.Read
import proofs.«100306_j77841987273276_2_alg».proof.Proof.Gen.Pre_finite_inputs
import proofs.«100306_j77841987273276_2_alg».proof.Proof.PasteBlocks
import proofs.«100306_j77841987273276_2_alg».proof.Proof.PasteRef
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end with the painted canvases of those
    arguments: the kernel by its blocks, the reference by its operations read at an index. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
